-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x1x2048x2048 : Shape := ⟨4, ![4, 1, 2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel

variable [Facts]

def fn {F : FTy → Type} [FloatOps F] (main_arg0 : FVec F S4x8x2048x64 .f32) (main_arg1 : FVec F S4x8x2048x64 .f32) (main_arg2 : FVec F S4x8x2048x64 .f32) (main_arg3 : IVec S4x1x2048x2048 1) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  main_v13
-- ==== Kernel.lean ====
abbrev S4x8x2048x64 : Shape := ⟨4, ![4, 8, 2048, 64]⟩
abbrev S4x1x2048x2048 : Shape := ⟨4, ![4, 1, 2048, 2048]⟩
abbrev S4x8x2048x2048 : Shape := ⟨4, ![4, 8, 2048, 2048]⟩
abbrev S1x1x256x64 : Shape := ⟨4, ![1, 1, 256, 64]⟩
abbrev S1x8x2048x64 : Shape := ⟨4, ![1, 8, 2048, 64]⟩
abbrev S1x1x256x2048 : Shape := ⟨4, ![1, 1, 256, 2048]⟩
abbrev S256x64 : Shape := ⟨2, ![256, 64]⟩
abbrev S1x1x2048x64 : Shape := ⟨4, ![1, 1, 2048, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x1x2048x2048, .i1⟩
  | .hbm, ⟨4, _⟩ => ⟨S4x1x2048x2048, .i32⟩
  | .hbm, ⟨5, _⟩ => ⟨S4x8x2048x64, .f32⟩
  | .hbm, ⟨6, _⟩ => ⟨S4x8x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x8x2048x64, .f32⟩
  | .local _ .vmem, ⟨3, _⟩ => ⟨S1x8x2048x64, .f32⟩
  | .local _ .vmem, ⟨4, _⟩ => ⟨S1x1x256x2048, .i32⟩
  | .local _ .vmem, ⟨5, _⟩ => ⟨S1x1x256x2048, .i32⟩
  | .local _ .vmem, ⟨6, _⟩ => ⟨S1x1x256x64, .f32⟩
  | .local _ .vmem, ⟨7, _⟩ => ⟨S1x1x256x64, .f32⟩
  | .local _ .vmem, ⟨8, _⟩ => ⟨S1x1x256x2048, .f32⟩
  | .local _ .vmem, ⟨9, _⟩ => ⟨S1x1x256x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 8], ![false, false, false]⟩

def k0_off1 (i : grid0.Coords) : Fin 4 → Nat :=
  let c0_3 : Index := 0#32
  let arg2 : BitVec 32 := BitVec.ofNat 32 (i 2).val
  let v5 : Index := Scalar.indexCast arg2
  let c0_4 : Index := 0#32
  let c0_5 : Index := 0#32
  ![0, v5.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x8x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x8x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  bitsLt_bf16_f32 : FTy.bits .bf16 < FTy.bits .f32
  h_S1x1x2048x64 : 0 < S1x1x2048x64.numel
  shapeCasts_S1x1x2048x64_S2048x64 : S1x1x2048x64.ShapeCasts S2048x64
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x1x256x2048 : S256x2048.ShapeCasts S1x1x256x2048
  shapeCasts_S256x64_S1x1x256x64 : S256x64.ShapeCasts S1x1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_off1_inb : ∀ i : grid0.Coords, ∀ a, (k0_off1 i) a + S1x1x2048x64.size a ≤ S1x8x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S4x8x2048x64.size a
  hwx0_0 : ∀ i : grid0.Coords, EltTy.bits .f32 = 32 ∨ (Rect.block (s := S4x8x2048x64) S1x1x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8x2048x64.size a ≤ S4x8x2048x64.size a
  hwx0_1 : ∀ i : grid0.Coords, EltTy.bits .f32 = 32 ∨ (Rect.block (s := S4x8x2048x64) S1x8x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8x2048x64.size a ≤ S4x8x2048x64.size a
  hwx0_2 : ∀ i : grid0.Coords, EltTy.bits .f32 = 32 ∨ (Rect.block (s := S4x8x2048x64) S1x8x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S4x1x2048x2048.size a
  hwx0_3 : ∀ i : grid0.Coords, EltTy.bits .i32 = 32 ∨ (Rect.block (s := S4x1x2048x2048) S1x1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S4x8x2048x64.size a
  hwx0_4 : ∀ i : grid0.Coords, EltTy.bits .f32 = 32 ∨ (Rect.block (s := S4x8x2048x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S4x8x2048x2048.size a
  hwx0_5 : ∀ i : grid0.Coords, EltTy.bits .f32 = 32 ∨ (Rect.block (s := S4x8x2048x2048) S1x1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x1x2048x2048 : Shape := ⟨4, ![4, 1, 2048, 2048]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x1x2048x2048, .i1⟩
  | .hbm, ⟨4, _⟩ => ⟨S4x8x2048x2048, .f32⟩
  | .hbm, ⟨5, _⟩ => ⟨S_, .f32⟩
  | .hbm, ⟨6, _⟩ => ⟨S4x8x2048x2048, .f32⟩
  | .hbm, ⟨7, _⟩ => ⟨S4x8x2048x2048, .f32⟩
  | .hbm, ⟨8, _⟩ => ⟨S_, .f32⟩
  | .hbm, ⟨9, _⟩ => ⟨S4x8x2048x2048, .i1⟩
  | .hbm, ⟨10, _⟩ => ⟨S4x8x2048x2048, .f32⟩
  | .hbm, ⟨11, _⟩ => ⟨S4x8x2048x2048, .f32⟩
  | .hbm, ⟨12, _⟩ => ⟨S_, .f32⟩
  | .hbm, ⟨13, _⟩ => ⟨S4x8x2048, .f32⟩
  | .hbm, ⟨14, _⟩ => ⟨S_, .f32⟩
  | .hbm, ⟨15, _⟩ => ⟨S4x8x2048, .f32⟩
  | .hbm, ⟨16, _⟩ => ⟨S4x8x2048, .f32⟩
  | .hbm, ⟨17, _⟩ => ⟨S4x8x2048x1, .f32⟩
  | .hbm, ⟨18, _⟩ => ⟨S4x8x2048x2048, .f32⟩
  | .hbm, ⟨19, _⟩ => ⟨S4x8x2048x2048, .f32⟩
  | .hbm, ⟨20, _⟩ => ⟨S4x8x2048x2048, .f32⟩
  | .hbm, ⟨21, _⟩ => ⟨S_, .f32⟩
  | .hbm, ⟨22, _⟩ => ⟨S4x8x2048, .f32⟩
  | .hbm, ⟨23, _⟩ => ⟨S4x8x2048x1, .f32⟩
  | .hbm, ⟨24, _⟩ => ⟨S4x8x2048x2048, .f32⟩
  | .hbm, ⟨25, _⟩ => ⟨S4x8x2048x2048, .f32⟩
  | .hbm, ⟨26, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  bcast_S4x1x2048x2048_S4x8x2048x2048_0_1_2_3 : S4x1x2048x2048.BroadcastsInDim S4x8x2048x2048 (![0, 1, 2, 3] : Fin 4 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.LibRealSum.lean ====
/-
  Finite sums of real numbers inside the extended reals.

  Addition of extended reals is commutative and associative, but negation distributes over a sum only away from the
  pair ⊤, ⊥. For REAL summands everything is as in ℝ: a finite sum of (coerced) reals is the coerced sum, it is itself
  real, and the sum of the negated terms is the negated sum. The last lemma is the shape in which these are used: one
  signed accumulation of two families of eight reals against the difference of the two separately accumulated sums.
-/
import Mathlib.Data.EReal.Operations
import Mathlib.Algebra.BigOperators.Fin
import Mathlib.Tactic.Ring
import Mathlib.Tactic.NormNum

namespace Cert.Splat

open scoped BigOperators

/-- The coercion ℝ → EReal commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_finset_sum]; exact Finset.sum_congr rfl fun i _ => hg i⟩

/-- The sum of the negated reals is the negated sum. -/
theorem sum_neg_real {ι : Type*} (s : Finset ι) (f : ι → EReal) (h : ∀ i, ∃ r : ℝ, f i = (r : EReal)) :
    ∑ i ∈ s, -(f i) = -(∑ i ∈ s, f i) := by
  choose g hg using h
  simp only [hg, ← EReal.coe_neg, ← coe_finset_sum, Finset.sum_neg_distrib]

/-- One accumulation of eight reals `a` and eight negated reals `b` from zero is the difference of the two chains that
    accumulate `a` and `b` from zero one term after the other. -/
theorem signed_sum_eq_sub (a b : Fin 8 → EReal) (ha : ∀ k, ∃ r : ℝ, a k = (r : EReal)) (hb : ∀ k, ∃ r : ℝ, b k = (r : EReal)) :
    0 + (∑ k, a k + ∑ k, -(b k))
      = ((((((((0 + a 0) + a 1) + a 2) + a 3) + a 4) + a 5) + a 6) + a 7)
        - ((((((((0 + b 0) + b 1) + b 2) + b 3) + b 4) + b 5) + b 6) + b 7) := by
  choose α hα using ha
  choose β hβ using hb
  simp only [hα, hβ, Fin.sum_univ_eight]
  norm_cast
  ring

end Cert.Splat
-- ==== Proof.Spec.lean ====
/-
  Scaled dot-product attention with a fill mask, as functions on the extended reals.

  For one batch b, head h and query row q the masked score against key row k is
      s(k) = FILL                           if the mask bit at (b, q, k) is set,
             the scaled dot product of query row q and key row k       otherwise.
  The probability row is the softmax of s with the row maximum subtracted first:
      p(k) = exp(s(k) - max_k' s(k')) / sum_k' exp(s(k') - max_k'' s(k'')),
  where the maximum is folded from the word for minus infinity, and the attention output at column d is
      sum_k p(k) * V(k, d).

  The scaled dot product has two spellings: the scale 1/8 applied to every query entry before the products are
  summed, or to the sum of the unscaled products. Multiplication distributes over a finite sum of REAL numbers, and 1/8
  is real, so the two agree as soon as the query and key entries are real; among infinities they need not
  (the sum of +inf and -inf is not the scaled sum of the scaled terms).
-/
import Idealize.ShloMosaic.PureOps.Ideal
import Idealize.ShloMosaic.PureOps.Ideal.Laws
import Idealize.ShloMosaic.Lib.ValueIdx
import proofs.«128989_j49065706389912_2_alg».proof.Proof.LibRealSum

noncomputable section

namespace Cert.Attn

open Idealize.ShloMosaic Idealize.ShloMosaic.ValueIdx
open scoped BigOperators

/-- The f32 word for minus infinity, the value every row maximum is folded from. -/
abbrev negInf : EReal := Ideal.ofBits .f32 0xFF800000#32
/-- The f32 word of the fill value a masked score is replaced by (one word, the same in both programs). -/
abbrev fillW : EReal := Ideal.ofBits .f32 0xCE6E6B28#32
/-- The f32 word of the scale, 1/8. -/
abbrev eighth : EReal := Ideal.ofBits .f32 0x3E000000#32

/-- The scale word denotes the real number 1/8. -/
theorem eighth_eq : eighth = ((1 / 8 : ℝ) : EReal) := by
  simp [Ideal.ofBits, Ideal.ieee, -EReal.coe_mul]; norm_num

/-! ## The softmax of one row -/

/-- The row's maximum, folded from minus infinity. -/
def rowMax {n : ℕ} (s : Fin n → EReal) : EReal := (Finset.univ : Finset (Fin n)).fold max negInf s
/-- The exponential of an entry less the row's maximum. -/
def rowExp {n : ℕ} (s : Fin n → EReal) (k : Fin n) : EReal := Ideal.exp (s k - rowMax s)
/-- The softmax of a row. -/
def softmax {n : ℕ} (s : Fin n → EReal) (k : Fin n) : EReal := Ideal.div (rowExp s k) (∑ k', rowExp s k')

/-- A maximum folded from a value is at least that value: taking the maximum with it again changes nothing. -/
theorem max_negInf_rowMax {n : ℕ} (s : Fin n → EReal) : max negInf (rowMax s) = rowMax s :=
  max_eq_right ((Finset.le_fold_max _).2 (Or.inl le_rfl))

/-! ## The scaled dot product, in its two spellings -/

/-- For real entries, scaling each left factor by 1/8 before summing the products is scaling the sum of products. -/
theorem scaled_dot {n : ℕ} (q k : Fin n → EReal) (hq : ∀ d, ∃ r : ℝ, q d = (r : EReal)) (hk : ∀ d, ∃ r : ℝ, k d = (r : EReal)) :
    ∑ d, (q d * eighth) * k d = (∑ d, q d * k d) * eighth := by
  choose qr hqr using hq
  choose kr hkr using hk
  simp only [hqr, hkr, eighth_eq, ← EReal.coe_mul, ← Cert.Splat.coe_finset_sum]
  refine congrArg _ ?_
  rw [Finset.sum_mul]
  exact Finset.sum_congr rfl fun d _ => by ring

/-! ## The arrays -/

/-- A [4, 8, 2048, 64] array of extended reals (queries, keys, values). -/
abbrev Arr64 : Type := (⟨4, ![4, 8, 2048, 64]⟩ : Shape).Idx → EReal
/-- The [4, 1, 2048, 2048] array of mask bits (set = masked out). -/
abbrev MaskArr : Type := (⟨4, ![4, 1, 2048, 2048]⟩ : Shape).Idx → BitVec 1

/-- The masked score with each query entry scaled before the products are summed. -/
def scoreScaledFirst (Q K : Arr64) (M : MaskArr) (b : Fin 4) (h : Fin 8) (q k : Fin 2048) : EReal :=
  Scalar.select (M (ix4 b (0 : Fin 1) q k)) fillW (∑ d : Fin 64, (Q (ix4 b h q d) * eighth) * K (ix4 b h k d))

/-- The masked score with the sum of products scaled. -/
def scoreScaledLast (Q K : Arr64) (M : MaskArr) (b : Fin 4) (h : Fin 8) (q k : Fin 2048) : EReal :=
  Scalar.select (M (ix4 b (0 : Fin 1) q k)) fillW ((∑ d : Fin 64, Q (ix4 b h q d) * K (ix4 b h k d)) * eighth)

/-- With real query and key entries the two masked scores are one function. -/
theorem scoreScaledFirst_eq (Q K : Arr64) (M : MaskArr) (hQ : ∀ i, ∃ r : ℝ, Q i = (r : EReal)) (hK : ∀ i, ∃ r : ℝ, K i = (r : EReal)) :
    scoreScaledFirst Q K M = scoreScaledLast Q K M := by
  funext b h q k
  unfold scoreScaledFirst scoreScaledLast
  rw [scaled_dot _ _ (fun d => hQ _) (fun d => hK _)]

/-- The probability array of a score function: row (b, h, q) is the softmax of the scores against every key row. -/
def probArr (sc : Fin 4 → Fin 8 → Fin 2048 → Fin 2048 → EReal) : (⟨4, ![4, 8, 2048, 2048]⟩ : Shape).Idx → EReal :=
  fun i => softmax (sc (i 0) (i 1) (i 2)) (i 3)

/-- The attention output of a score function and a value array: the probability row times the value columns. -/
def outArr (sc : Fin 4 → Fin 8 → Fin 2048 → Fin 2048 → EReal) (V : Arr64) : (⟨4, ![4, 8, 2048, 64]⟩ : Shape).Idx → EReal :=
  fun i => ∑ k : Fin 2048, softmax (sc (i 0) (i 1) (i 2)) k * V (ix4 (i 0) (i 1) k (i 3))

end Cert.Attn

end
-- ==== Proof.Pieces.lean ====
/-
  What the body's stores leave in the two output staging buffers, as functions of the blocks the body loads.

  The body stores each output block whole, once, so each buffer ends holding that store's value: for the
  probabilities, the softmax payload of the query block, the current head's key slab and the mask block; for the
  attention output, the product of those probabilities with the current head's value slab. The key and value blocks
  hold all eight heads; the slab of head h is the block read through the unit rectangle at offset h on the head axis.
-/
import proofs.«128989_j49065706389912_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz4 : (![0, 0, 0, 0] : Fin 4 → Nat) = fun _ => 0 := funext fun a => by fin_cases a <;> rfl

/-- One head's slab of an all-heads block: the [1, 8, 2048, 64] block read through the unit rectangle whose offset on
    the head axis is the grid's third coordinate. -/
def headBlk (i : grid0.Coords) (x : Vec F S1x8x2048x64 .f32) : Vec F S1x1x2048x64 .f32 :=
  View.ld x (Rect.unit (s := S1x8x2048x64) (k0_off1 i) S1x1x2048x64.size (k0_off1_inb i))

/-- What the body leaves in the probability output's staging buffer: the softmax payload of the query block, the
    current head's slab of the key block, and the mask block. -/
theorem out5_eq (c : Dev nD) (i : grid0.Coords) (arg3 : Memref sig .tc .vmem S1x1x256x64 .f32) (harg3 : arg3.IsWhole) (arg4 : Memref sig .tc .vmem S1x8x2048x64 .f32) (harg4 : arg4.IsWhole) (arg5 : Memref sig .tc .vmem S1x8x2048x64 .f32) (harg5 : arg5.IsWhole) (arg6 : Memref sig .tc .vmem S1x1x256x2048 .i32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x8x2048x64 .f32) (x2 : Vec F S1x8x2048x64 .f32) (x3 : Vec F S1x1x256x2048 .i32) :
    out0_A_5 c i arg3 harg3 arg4 harg4 arg5 harg5 arg6 harg6 arg7 harg7 arg8 harg8 x0 x1 x2 x3 = k0_pay4 x0 (headBlk i x1) x3 := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  rw [View.canon_unit_zero hz4]
  simp only [View.readAt_eq_ld, harg3.read_unread, harg4.read_unread, harg6.read_unread,
    View.ld_unit_zero (S := S1x1x256x64) hz4, View.ld_unit_zero (S := S1x1x256x2048) hz4]
  rfl

/-- What the body leaves in the attention output's staging buffer: the product of the (format-changed) probabilities
    with the current head's slab of the value block. -/
theorem out4_eq (c : Dev nD) (i : grid0.Coords) (arg3 : Memref sig .tc .vmem S1x1x256x64 .f32) (harg3 : arg3.IsWhole) (arg4 : Memref sig .tc .vmem S1x8x2048x64 .f32) (harg4 : arg4.IsWhole) (arg5 : Memref sig .tc .vmem S1x8x2048x64 .f32) (harg5 : arg5.IsWhole) (arg6 : Memref sig .tc .vmem S1x1x256x2048 .i32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x8x2048x64 .f32) (x2 : Vec F S1x8x2048x64 .f32) (x3 : Vec F S1x1x256x2048 .i32) :
    out0_A_4 c i arg3 harg3 arg4 harg4 arg5 harg5 arg6 harg6 arg7 harg7 arg8 harg8 x0 x1 x2 x3 = k0_pay1 (k0_pay2 (headBlk i x2)) (k0_pay5 x0 (headBlk i x1) x3) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg5.read_unread, harg6.read_unread,
    View.ld_unit_zero (S := S1x1x256x64) hz4, View.ld_unit_zero (S := S1x1x256x2048) hz4]
  rfl

end Cert.KernelIdeal.Hand
end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibSoftmaxRow.lean ====
/-
  A row-wise softmax over a matrix [a, b] of extended reals, in the form a vector unit computes it, read at one entry.

  The row maximum is a maximum-reduction over axis 1 into a vector [a], re-laid as a column [a, 1] and spread back over
  [a, b]; it is subtracted, the exponential taken, the exponentials summed over axis 1 by an add-reduction treated the
  same way, and the quotient formed. Because max and + on the extended reals commute and associate, each reduction at
  row r is the fold (the sum) over the row's entries, whatever order it visits them in. So entry (r, k) of the result is
      exp(s(r,k) - M_r) / sum_k' exp(s(r,k') - M_r),      M_r the maximum of row r folded from the accumulator's value.
-/
import Idealize.ShloMosaic.Lib.ValueIdx
import Idealize.ShloMosaic.Lib.Pipeline.Value
import Idealize.ShloMosaic.PureOps.Ideal.Laws
import Idealize.ShloMosaic.PureOps.Reduce
import proofs.«128989_j49065706389912_2_alg».proof.Proof.LibColumn

noncomputable section

namespace Cert.LibSoftmaxRow

open Idealize.ShloMosaic Idealize.ShloMosaic.ValueIdx
open scoped BigOperators

set_option backward.isDefEq.respectTransparency.types false in
/-- Over row `r` of the reduced vector, inserting coordinate `k` on the reduced axis 1 gives the matrix index (r, k). -/
theorem lift_row {a b : ℕ} (h : (⟨2, ![a, b]⟩ : Shape).Reduces [1] ⟨1, ![a]⟩) (r : Fin a) (k : Fin b) :
    h.lift (ix1 r) k = ix2 r k := by
  funext c
  apply Fin.ext
  rw [h.lift_val]
  match c with
  | ⟨0, _⟩ => rfl
  | ⟨1, _⟩ => rfl

/-- A maximum-reduction over axis 1, at row `r`: the fold of max from the accumulator's value over the row's entries. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => (Finset.univ : Finset (Fin b)).fold max (Ideal.ofBits .f32 acc) f)
    (funext fun k => congrArg src (lift_row h r k))

/-- An add-reduction over axis 1, at row `r`: the sum of the row's entries. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- The row softmax, as computed with the reduced axis kept as a unit column, read at entry (r, k). -/
theorem softmaxRow_apply {a b : ℕ} (s : FVec Ideal ⟨2, ![a, b]⟩ .f32) (accM accA : BitVec 32)
    (h : (⟨2, ![a, b]⟩ : Shape).Reduces [1] ⟨1, ![a]⟩) (hφ hφ' : FKind.Formats .f32)
    (haccM : accM = FKind.maximumf.neutral .f32 hφ) (haccA : accA = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (k : Fin b) :
    divf
        (exp (subf s (broadcastTo ⟨2, ![a, b]⟩ (shapeCast ⟨2, ![a, 1]⟩ (multiReduction .maximumf [1] ⟨1, ![a]⟩ s accM h hφ haccM) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s accM h hφ haccM) hc) hb)))
          accA h hφ' haccA) hc) hb) (ix2 r k)
      = Ideal.div
          (Ideal.exp (s (ix2 r k) - (Finset.univ : Finset (Fin b)).fold max (Ideal.ofBits .f32 accM) (fun k' => s (ix2 r k'))))
          (∑ k' : Fin b, Ideal.exp (s (ix2 r k') - (Finset.univ : Finset (Fin b)).fold max (Ideal.ofBits .f32 accM) (fun k'' => s (ix2 r k'')))) := by
  have hM : ∀ k' : Fin b,
      broadcastTo ⟨2, ![a, b]⟩ (shapeCast ⟨2, ![a, 1]⟩ (multiReduction .maximumf [1] ⟨1, ![a]⟩ s accM h hφ haccM) hc) hb (ix2 r k')
        = (Finset.univ : Finset (Fin b)).fold max (Ideal.ofBits .f32 accM) (fun k'' => s (ix2 r k'')) := fun k' =>
    (Cert.LibColumn.broadcastTo_a1_ab_apply _ hb r k').trans
      ((Cert.LibColumn.shapeCast_a_a1_apply _ hc r 0).trans (rowMax_apply s accM h hφ haccM r))
  have hE : ∀ k' : Fin b,
      exp (subf s (broadcastTo ⟨2, ![a, b]⟩ (shapeCast ⟨2, ![a, 1]⟩ (multiReduction .maximumf [1] ⟨1, ![a]⟩ s accM h hφ haccM) hc) hb)) (ix2 r k')
        = Ideal.exp (s (ix2 r k') - (Finset.univ : Finset (Fin b)).fold max (Ideal.ofBits .f32 accM) (fun k'' => s (ix2 r k''))) := fun k' =>
    congrArg (fun m => Ideal.exp (s (ix2 r k') - m)) (hM k')
  refine (congrArg₂ Ideal.div (hE k) ?_ : _)
  refine (Cert.LibColumn.broadcastTo_a1_ab_apply _ hb r k).trans ((Cert.LibColumn.shapeCast_a_a1_apply _ hc r 0).trans ?_)
  refine (rowSum_apply _ accA h hφ' haccA r).trans ?_
  exact Finset.sum_congr rfl fun k' _ => hE k'

end Cert.LibSoftmaxRow

end
-- ==== Proof.LibLayout11.lean ====
/-
  Two re-layings around a pair of LEADING unit axes, read at an index given by coordinates.

  An array [1, 1, a, b] and the matrix [a, b] hold the same entries in the same row-major order: entry (0, 0, r, k) of
  the one is entry (r, k) of the other, whichever way the re-laying goes.
-/
import Idealize.ShloMosaic.Lib.Pipeline.Value
import Idealize.ShloMosaic.Lib.ValueIdx

namespace Cert.LibLayout11

open Idealize.ShloMosaic Idealize.ShloMosaic.ValueIdx

variable {α : Type}

/-- An array `[1, 1, a, b]` re-laid as the matrix `[a, b]` reads, at `(r, k)`, the array at `(0, 0, r, k)`. -/
theorem shapeCast_11ab_ab_apply {a b : ℕ} (x : (⟨4, ![1, 1, a, b]⟩ : Shape).Idx → α)
    (h : (⟨4, ![1, 1, a, b]⟩ : Shape).ShapeCasts ⟨2, ![a, b]⟩) (r : Fin a) (k : Fin b) :
    shapeCast ⟨2, ![a, b]⟩ x h (ix2 r k) = x (ix4 (0 : Fin 1) (0 : Fin 1) r k) :=
  shapeCast_apply x h _ _ (by
    rw [Shape.rowMajor_val_four, Shape.rowMajor_val_two]
    show ((0 * 1 + 0) * a + r.val) * b + k.val = r.val * b + k.val
    simp only [Nat.zero_mul, Nat.zero_add, Nat.mul_one])

/-- A matrix `[a, b]` re-laid as `[1, 1, a, b]` reads, at `(u, v, r, k)`, the matrix at `(r, k)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (r : Fin a) (k : Fin b) :
    shapeCast ⟨4, ![1, 1, a, b]⟩ x h (ix4 u v r k) = x (ix2 r k) :=
  shapeCast_apply x h _ _ (by
    have hu : u.val = 0 := by omega
    have hv : v.val = 0 := by omega
    rw [Shape.rowMajor_val_four, Shape.rowMajor_val_two]
    show r.val * b + k.val = ((u.val * 1 + v.val) * a + r.val) * b + k.val
    simp only [hu, hv, Nat.zero_mul, Nat.zero_add, Nat.mul_one])

end Cert.LibLayout11
-- ==== Proof.Payload.lean ====
/-
  The body's arithmetic, read at one entry over the extended reals.

  The body holds a query block x0 [1, 1, 256, 64], one head's key slab x6 and value slab x10 [1, 1, 2048, 64], and a mask
  block x14 [1, 1, 256, 2048] of 32-bit words (nonzero = masked). Its masked score at (r, k) is the fill value where
  the mask word is nonzero and otherwise the sum over d of (x0(r, d) / 8) * x6(k, d): a product of two matrices with no
  accumulator, the second one transposed, is that sum; the format changes on the way in are the identity on the
  extended reals. The probabilities are the row softmax of the masked scores, and the output block at (r, d) is the
  sum over k of probability(r, k) * x10(k, d).
-/
import proofs.«128989_j49065706389912_2_alg».proof.Proof.Gen.KernelIdeal.Skeleton
import proofs.«128989_j49065706389912_2_alg».proof.Proof.Spec
import proofs.«128989_j49065706389912_2_alg».proof.Proof.LibSoftmaxRow
import proofs.«128989_j49065706389912_2_alg».proof.Proof.LibLayout11
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Cert.Attn
open Idealize.ShloMosaic Idealize.ShloMosaic.ValueIdx
open scoped BigOperators

/-- The masked score of query row `r` of the block against key row `k` of the head's slab. -/
def blockScore (x0 : Vec Ideal S1x1x256x64 .f32) (x6 : Vec Ideal S1x1x2048x64 .f32) (x14 : Vec Ideal S1x1x256x2048 .i32)
    (r : Fin 256) (k : Fin 2048) : EReal :=
  Scalar.select (IntOp.cmpi .ne (x14 (ix4 (0 : Fin 1) (0 : Fin 1) r k)) 0#32) fillW
    (∑ d : Fin 64, (x0 (ix4 (0 : Fin 1) (0 : Fin 1) r d) * eighth) * x6 (ix4 (0 : Fin 1) (0 : Fin 1) k d))

/-! ## The two matrix products -/

theorem scoreDot_lhs0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem scoreDot_rhs0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl

/-- The score product: a [256, 64] matrix times the transpose of a [2048, 64] matrix, into a zero accumulator, at
    (r, k) is the sum over the 64 columns of the products of row r and row k. -/
theorem scoreDot_apply (l : FVec Ideal S256x64 .bf16) (rr : FVec Ideal S2048x64 .bf16) (r : Fin 256) (k : Fin 2048) :
    matmul dot_S256x64_S2048x64_S256x2048_1_1_0_0_n_n none l rr (constant (F := Ideal) S256x2048 .f32 0x00000000#32) (ix2 r k)
      = ∑ d : Fin 64, l (ix2 r d) * rr (ix2 k d) := by
  refine (Ideal.matmul_constant_zero_apply dot_S256x64_S2048x64_S256x2048_1_1_0_0_n_n none l rr (ix2 r k)).trans ?_
  rw [← Equiv.sum_comp (contrEquiv1 dot_S256x64_S2048x64_S256x2048_1_1_0_0_n_n 64 rfl rfl).symm]
  refine Finset.sum_congr rfl fun d _ => ?_
  have hk := contrEquiv1_symm_val dot_S256x64_S2048x64_S256x2048_1_1_0_0_n_n 64 rfl rfl d
  have el : dot_S256x64_S2048x64_S256x2048_1_1_0_0_n_n.lhsIdx (ix2 r k) ((contrEquiv1 dot_S256x64_S2048x64_S256x2048_1_1_0_0_n_n 64 rfl rfl).symm d) = ix2 r d := funext fun a => Fin.ext (by
    match a with
    | ⟨0, _⟩ => exact scoreDot_lhs0 _ _
    | ⟨1, _⟩ => exact (dot_S256x64_S2048x64_S256x2048_1_1_0_0_n_n.lhsIdx_val_of_single rfl _ _).trans hk)
  have er : dot_S256x64_S2048x64_S256x2048_1_1_0_0_n_n.rhsIdx (ix2 r k) ((contrEquiv1 dot_S256x64_S2048x64_S256x2048_1_1_0_0_n_n 64 rfl rfl).symm d) = ix2 k d := funext fun a => Fin.ext (by
    match a with
    | ⟨0, _⟩ => exact scoreDot_rhs0 _ _
    | ⟨1, _⟩ => exact (dot_S256x64_S2048x64_S256x2048_1_1_0_0_n_n.rhsIdx_val_of_single rfl _ _).trans hk)
  rw [el, er]

theorem outDot_lhs0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem outDot_rhs1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The output product: a [256, 2048] matrix times a [2048, 64] matrix, into a zero accumulator, at (r, d) is the
    sum over the 2048 inner indices. -/
theorem outDot_apply (l : FVec Ideal S256x2048 .bf16) (rr : FVec Ideal S2048x64 .bf16) (r : Fin 256) (d : Fin 64) :
    matmul dot_S256x2048_S2048x64_S256x64_1_0_0_1_n_n none l rr (constant (F := Ideal) S256x64 .f32 0x00000000#32) (ix2 r d)
      = ∑ k : Fin 2048, l (ix2 r k) * rr (ix2 k d) := by
  refine (Ideal.matmul_constant_zero_apply dot_S256x2048_S2048x64_S256x64_1_0_0_1_n_n none l rr (ix2 r d)).trans ?_
  rw [← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d) ((contrEquiv1 dot_S256x2048_S2048x64_S256x64_1_0_0_1_n_n 2048 rfl rfl).symm k) = ix2 r k := funext fun a => Fin.ext (by
    match a with
    | ⟨0, _⟩ => exact outDot_lhs0 _ _
    | ⟨1, _⟩ => exact (dot_S256x2048_S2048x64_S256x64_1_0_0_1_n_n.lhsIdx_val_of_single rfl _ _).trans hk)
  have er : dot_S256x2048_S2048x64_S256x64_1_0_0_1_n_n.rhsIdx (ix2 r d) ((contrEquiv1 dot_S256x2048_S2048x64_S256x64_1_0_0_1_n_n 2048 rfl rfl).symm k) = ix2 k d := funext fun a => Fin.ext (by
    match a with
    | ⟨0, _⟩ => exact (dot_S256x2048_S2048x64_S256x64_1_0_0_1_n_n.rhsIdx_val_of_single rfl _ _).trans hk
    | ⟨1, _⟩ => exact outDot_rhs1 _ _)
  rw [el, er]

/-! ## The masked scores and the probabilities -/

/-- The matrix of masked scores the body forms before its softmax. -/
def maskedBlock (x0 : Vec Ideal S1x1x256x64 .f32) (x6 : Vec Ideal S1x1x2048x64 .f32) (x14 : Vec Ideal S1x1x256x2048 .i32) :
    FVec Ideal S256x2048 .f32 :=
  select (cmpi .ne (shapeCast S256x2048 x14 shapeCasts_S1x1x256x2048_S256x2048) (constantI S256x2048 32 0#32))
    (broadcast S256x2048 (Scalar.ofBits (F := Ideal) .f32 0xCE6E6B28#32))
    (matmul dot_S256x64_S2048x64_S256x2048_1_1_0_0_n_n none
      (truncf .bf16 (mulf (shapeCast S256x64 x0 shapeCasts_S1x1x256x64_S256x64) (broadcast S256x64 (Scalar.ofBits (F := Ideal) .f32 0x3E000000#32))) bitsLt_bf16_f32)
      (truncf .bf16 (shapeCast S2048x64 x6 shapeCasts_S1x1x2048x64_S2048x64) bitsLt_bf16_f32)
      (constant (F := Ideal) S256x2048 .f32 0x00000000#32))

/-- The masked-score matrix at (r, k) is the block's masked score. -/
theorem maskedBlock_apply (x0 : Vec Ideal S1x1x256x64 .f32) (x6 : Vec Ideal S1x1x2048x64 .f32) (x14 : Vec Ideal S1x1x256x2048 .i32)
    (r : Fin 256) (k : Fin 2048) : maskedBlock x0 x6 x14 (ix2 r k) = blockScore x0 x6 x14 r k := by
  unfold maskedBlock blockScore
  show Scalar.select (IntOp.cmpi .ne (shapeCast S256x2048 x14 shapeCasts_S1x1x256x2048_S256x2048 (ix2 r k)) 0#32) fillW _ = _
  refine congrArg₂ (fun w v => Scalar.select (IntOp.cmpi .ne w 0#32) fillW v)
    (Cert.LibLayout11.shapeCast_11ab_ab_apply x14 shapeCasts_S1x1x256x2048_S256x2048 r k) ?_
  refine (scoreDot_apply _ _ r k).trans (Finset.sum_congr rfl fun d _ => ?_)
  show (shapeCast S256x64 x0 shapeCasts_S1x1x256x64_S256x64 (ix2 r d) * eighth) * shapeCast S2048x64 x6 shapeCasts_S1x1x2048x64_S2048x64 (ix2 k d) = _
  rw [Cert.LibLayout11.shapeCast_11ab_ab_apply x0 shapeCasts_S1x1x256x64_S256x64 r d,
    Cert.LibLayout11.shapeCast_11ab_ab_apply x6 shapeCasts_S1x1x2048x64_S2048x64 k d]

/-- The probability payload at (r, k): the softmax of the row's masked scores. -/
theorem pay3_apply (x0 : Vec Ideal S1x1x256x64 .f32) (x6 : Vec Ideal S1x1x2048x64 .f32) (x14 : Vec Ideal S1x1x256x2048 .i32)
    (r : Fin 256) (k : Fin 2048) : k0_pay3 (F := Ideal) x0 x6 x14 (ix2 r k) = softmax (blockScore x0 x6 x14 r) k := by
  refine (Cert.LibSoftmaxRow.softmaxRow_apply (a := 256) (b := 2048) (maskedBlock x0 x6 x14) 0xFF800000#32 0x00000000#32
    reduces_S256x2048_S256 (.inl rfl) (.inl rfl) rfl rfl shapeCasts_S256_S256x1 broadcasts_S256x1_S256x2048 r k).trans ?_
  unfold softmax rowExp rowMax
  simp only [maskedBlock_apply]

/-- The stored probability block at (u, v, r, k) is the probability payload at (r, k). -/
theorem pay4_apply (x0 : Vec Ideal S1x1x256x64 .f32) (x6 : Vec Ideal S1x1x2048x64 .f32) (x14 : Vec Ideal S1x1x256x2048 .i32)
    (u v : Fin 1) (r : Fin 256) (k : Fin 2048) :
    k0_pay4 (F := Ideal) x0 x6 x14 (ix4 u v r k) = softmax (blockScore x0 x6 x14 r) k :=
  (Cert.LibLayout11.shapeCast_ab_11ab_apply (k0_pay3 (F := Ideal) x0 x6 x14) shapeCasts_S256x2048_S1x1x256x2048 u v r k).trans
    (pay3_apply x0 x6 x14 r k)

/-- The stored output block at (u, v, r, d): the probability row times column d of the head's value slab. -/
theorem out_apply (x0 : Vec Ideal S1x1x256x64 .f32) (x6 x10 : Vec Ideal S1x1x2048x64 .f32) (x14 : Vec Ideal S1x1x256x2048 .i32)
    (u v : Fin 1) (r : Fin 256) (d : Fin 64) :
    k0_pay1 (F := Ideal) (k0_pay2 (F := Ideal) x10) (k0_pay5 (F := Ideal) x0 x6 x14) (ix4 u v r d)
      = ∑ k : Fin 2048, softmax (blockScore x0 x6 x14 r) k * x10 (ix4 (0 : Fin 1) (0 : Fin 1) k d) := by
  refine (Cert.LibLayout11.shapeCast_ab_11ab_apply (matmul dot_S256x2048_S2048x64_S256x64_1_0_0_1_n_n none (k0_pay5 (F := Ideal) x0 x6 x14) (k0_pay2 (F := Ideal) x10) (constant (F := Ideal) S256x64 .f32 0x00000000#32)) shapeCasts_S256x64_S1x1x256x64 u v r d).trans ?_
  refine (outDot_apply _ _ r d).trans (Finset.sum_congr rfl fun k _ => ?_)
  show k0_pay3 (F := Ideal) x0 x6 x14 (ix2 r k) * shapeCast S2048x64 x10 shapeCasts_S1x1x2048x64_S2048x64 (ix2 k d) = _
  rw [pay3_apply, Cert.LibLayout11.shapeCast_11ab_ab_apply x10 shapeCasts_S1x1x2048x64_S2048x64 k d]

end Cert.KernelIdeal.Hand

end
-- ==== Proof.Blocks.lean ====
/-
  From the blocks to the whole arrays: what the kernel's run leaves in its two results.

  At every grid point the body's stores leave in the two output staging buffers the payloads of the point's input
  blocks. Each input block is a rectangle of an argument array (the mask's of its widened copy), so the payload read at
  an entry is the masked-score softmax, and its product with the values, of the ARGUMENT arrays at the entry's global
  coordinates: what a point writes back is its block of one whole-array function. The 256 blocks of each output tile
  its array, so after the run each output array IS that function of the launch contents.
-/
import proofs.«128989_j49065706389912_2_alg».proof.Proof.Gen.KernelIdeal.Value
import proofs.«128989_j49065706389912_2_alg».proof.Proof.Pieces
import proofs.«128989_j49065706389912_2_alg».proof.Proof.Payload
import proofs.«128989_j49065706389912_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.Attn
open Idealize.ShloMosaic.ValueIdx
open scoped BigOperators

variable (m : (ℓ : Loc nD τ sig) → Buf (Elt Ideal) ℓ) (ρ : Dev nD → PrngReg)

/-! ## The grid: which block of each array a point works on

The 256 points run over (batch b, query tile, head h) with the head fastest: point t has b = t / 64, query tile
t / 8 mod 8, h = t mod 8. Queries, outputs and probabilities use block (b, h, tile, 0); keys and values block
(b, 0, 0, 0), all heads at once, of which the body reads the slab at offset h; the mask block (b, 0, tile, 0). -/

theorem idx_facts : ∀ t : Fin cfg0.N,
    win0_0.index t = ![t.val / 64, t.val % 8, t.val / 8 % 8, 0]
    ∧ win0_1.index t = ![t.val / 64, 0, 0, 0]
    ∧ win0_2.index t = ![t.val / 64, 0, 0, 0]
    ∧ win0_3.index t = ![t.val / 64, 0, t.val / 8 % 8, 0]
    ∧ win0_4.index t = ![t.val / 64, t.val % 8, t.val / 8 % 8, 0]
    ∧ win0_5.index t = ![t.val / 64, t.val % 8, t.val / 8 % 8, 0]
    ∧ k0_off1 (grid0.coords t) = ![0, t.val % 8, 0, 0] :=
  (by decide +kernel : ∀ t : Fin grid0.N, _)

/-- The mask array the region finds is the mask bits widened to 32-bit words. -/
theorem V_mask (c : Dev nD) :
    (V m c main_call0_v0 : S4x1x2048x2048.Idx → BitVec 32) = extui 32 (m ((c : Thread nD τ).loc main_arg3)) natLt_1_32 := by
  dsimp only [Gen.V, Gen.hostOps0]
  after_results
  rfl

/-- A widened bit is nonzero exactly when the bit is set. -/
theorem maskBit (w : BitVec 1) : IntOp.cmpi .ne (w.setWidth 32) 0#32 = w := by
  rcases BitVec.eq_zero_or_eq_one w with h | h <;> subst h <;> decide

/-! ## The blocks as entries of the argument arrays -/

/-- The query block at point `t`: rows `256 * tile …` of batch `b`, head `h`. -/
theorem qblk_apply (c : Dev nD) (t : Fin cfg0.N) (y : S1x1x256x64.Idx) (j : S4x8x2048x64.Idx)
    (h0 : (j 0).val = t.val / 64) (h1 : (j 1).val = t.val % 8) (h2 : (j 2).val = t.val / 8 % 8 * 256 + (y 2).val)
    (h3 : (j 3).val = (y 3).val) :
    (iblk m c 0 t : Vec Ideal S1x1x256x64 .f32) y = (m ((c : Thread nD τ).loc main_arg0) : S4x8x2048x64.Idx → EReal) j := by
  obtain ⟨e0, -⟩ := idx_facts t
  have y0 : (y 0).val < 1 := (y 0).isLt
  have y1 : (y 1).val < 1 := (y 1).isLt
  unfold iblk
  rw [View.read_apply]
  show V m c main_arg0 _ = _
  rw [V_main_arg0]
  refine congrArg _ (funext fun a => Fin.ext ?_)
  match a with
  | ⟨0, _⟩ => show win0_0.index t (0 : Fin 4) * 1 + 1 * (y 0).val = (j 0).val; rw [show win0_0.index t (0 : Fin 4) = t.val / 64 from congrFun e0 0, h0]; omega
  | ⟨1, _⟩ => show win0_0.index t (1 : Fin 4) * 1 + 1 * (y 1).val = (j 1).val; rw [show win0_0.index t (1 : Fin 4) = t.val % 8 from congrFun e0 1, h1]; omega
  | ⟨2, _⟩ => show win0_0.index t (2 : Fin 4) * 256 + 1 * (y 2).val = (j 2).val; rw [show win0_0.index t (2 : Fin 4) = t.val / 8 % 8 from congrFun e0 2, h2]; omega
  | ⟨3, _⟩ => show win0_0.index t (3 : Fin 4) * 64 + 1 * (y 3).val = (j 3).val; rw [show win0_0.index t (3 : Fin 4) = 0 from congrFun e0 3, h3]; omega

/-- The current head's slab of the key block at point `t`: all rows of batch `b`, head `h`. -/
theorem kslab_apply (c : Dev nD) (t : Fin cfg0.N) (y : S1x1x2048x64.Idx) (j : S4x8x2048x64.Idx)
    (h0 : (j 0).val = t.val / 64) (h1 : (j 1).val = t.val % 8) (h2 : (j 2).val = (y 2).val) (h3 : (j 3).val = (y 3).val) :
    headBlk (grid0.coords t) (iblk m c 1 t : Vec Ideal S1x8x2048x64 .f32) y
      = (m ((c : Thread nD τ).loc main_arg1) : S4x8x2048x64.Idx → EReal) j := by
  obtain ⟨-, e1, -, -, -, -, eo⟩ := idx_facts t
  have y0 : (y 0).val < 1 := (y 0).isLt
  have y1 : (y 1).val < 1 := (y 1).isLt
  unfold headBlk iblk
  show (((cfg0.win 1).blk t).view.read (Elt Ideal) (V m c (Pipeline.arrRef spec0 1)))
      ((Rect.unit (s := S1x8x2048x64) (k0_off1 (grid0.coords t)) S1x1x2048x64.size (k0_off1_inb (grid0.coords t))).idx y) = _
  rw [View.read_apply]
  show V m c main_arg1 _ = _
  rw [V_main_arg1]
  refine congrArg _ (funext fun a => Fin.ext ?_)
  match a with
  | ⟨0, _⟩ => show win0_1.index t (0 : Fin 4) * 1 + 1 * (k0_off1 (grid0.coords t) (0 : Fin 4) + 1 * (y 0).val) = (j 0).val; rw [show win0_1.index t (0 : Fin 4) = t.val / 64 from congrFun e1 0, show k0_off1 (grid0.coords t) (0 : Fin 4) = 0 from congrFun eo 0, h0]; omega
  | ⟨1, _⟩ => show win0_1.index t (1 : Fin 4) * 8 + 1 * (k0_off1 (grid0.coords t) (1 : Fin 4) + 1 * (y 1).val) = (j 1).val; rw [show win0_1.index t (1 : Fin 4) = 0 from congrFun e1 1, show k0_off1 (grid0.coords t) (1 : Fin 4) = t.val % 8 from congrFun eo 1, h1]; omega
  | ⟨2, _⟩ => show win0_1.index t (2 : Fin 4) * 2048 + 1 * (k0_off1 (grid0.coords t) (2 : Fin 4) + 1 * (y 2).val) = (j 2).val; rw [show win0_1.index t (2 : Fin 4) = 0 from congrFun e1 2, show k0_off1 (grid0.coords t) (2 : Fin 4) = 0 from congrFun eo 2, h2]; omega
  | ⟨3, _⟩ => show win0_1.index t (3 : Fin 4) * 64 + 1 * (k0_off1 (grid0.coords t) (3 : Fin 4) + 1 * (y 3).val) = (j 3).val; rw [show win0_1.index t (3 : Fin 4) = 0 from congrFun e1 3, show k0_off1 (grid0.coords t) (3 : Fin 4) = 0 from congrFun eo 3, h3]; omega

/-- The current head's slab of the value block at point `t`. -/
theorem vslab_apply (c : Dev nD) (t : Fin cfg0.N) (y : S1x1x2048x64.Idx) (j : S4x8x2048x64.Idx)
    (h0 : (j 0).val = t.val / 64) (h1 : (j 1).val = t.val % 8) (h2 : (j 2).val = (y 2).val) (h3 : (j 3).val = (y 3).val) :
    headBlk (grid0.coords t) (iblk m c 2 t : Vec Ideal S1x8x2048x64 .f32) y
      = (m ((c : Thread nD τ).loc main_arg2) : S4x8x2048x64.Idx → EReal) j := by
  obtain ⟨-, -, e2, -, -, -, eo⟩ := idx_facts t
  have y0 : (y 0).val < 1 := (y 0).isLt
  have y1 : (y 1).val < 1 := (y 1).isLt
  unfold headBlk iblk
  show (((cfg0.win 2).blk t).view.read (Elt Ideal) (V m c (Pipeline.arrRef spec0 2)))
      ((Rect.unit (s := S1x8x2048x64) (k0_off1 (grid0.coords t)) S1x1x2048x64.size (k0_off1_inb (grid0.coords t))).idx y) = _
  rw [View.read_apply]
  show V m c main_arg2 _ = _
  rw [V_main_arg2]
  refine congrArg _ (funext fun a => Fin.ext ?_)
  match a with
  | ⟨0, _⟩ => show win0_2.index t (0 : Fin 4) * 1 + 1 * (k0_off1 (grid0.coords t) (0 : Fin 4) + 1 * (y 0).val) = (j 0).val; rw [show win0_2.index t (0 : Fin 4) = t.val / 64 from congrFun e2 0, show k0_off1 (grid0.coords t) (0 : Fin 4) = 0 from congrFun eo 0, h0]; omega
  | ⟨1, _⟩ => show win0_2.index t (1 : Fin 4) * 8 + 1 * (k0_off1 (grid0.coords t) (1 : Fin 4) + 1 * (y 1).val) = (j 1).val; rw [show win0_2.index t (1 : Fin 4) = 0 from congrFun e2 1, show k0_off1 (grid0.coords t) (1 : Fin 4) = t.val % 8 from congrFun eo 1, h1]; omega
  | ⟨2, _⟩ => show win0_2.index t (2 : Fin 4) * 2048 + 1 * (k0_off1 (grid0.coords t) (2 : Fin 4) + 1 * (y 2).val) = (j 2).val; rw [show win0_2.index t (2 : Fin 4) = 0 from congrFun e2 2, show k0_off1 (grid0.coords t) (2 : Fin 4) = 0 from congrFun eo 2, h2]; omega
  | ⟨3, _⟩ => show win0_2.index t (3 : Fin 4) * 64 + 1 * (k0_off1 (grid0.coords t) (3 : Fin 4) + 1 * (y 3).val) = (j 3).val; rw [show win0_2.index t (3 : Fin 4) = 0 from congrFun e2 3, show k0_off1 (grid0.coords t) (3 : Fin 4) = 0 from congrFun eo 3, h3]; omega

/-- The mask block at point `t`, tested against zero, is the mask bit of batch `b` at the tile's rows. -/
theorem maskblk_apply (c : Dev nD) (t : Fin cfg0.N) (y : S1x1x256x2048.Idx) (j : S4x1x2048x2048.Idx)
    (h0 : (j 0).val = t.val / 64) (h2 : (j 2).val = t.val / 8 % 8 * 256 + (y 2).val) (h3 : (j 3).val = (y 3).val) :
    IntOp.cmpi .ne ((iblk m c 3 t : Vec Ideal S1x1x256x2048 .i32) y) 0#32
      = (m ((c : Thread nD τ).loc main_arg3) : S4x1x2048x2048.Idx → BitVec 1) j := by
  obtain ⟨-, -, -, e3, -⟩ := idx_facts t
  have y0 : (y 0).val < 1 := (y 0).isLt
  have y1 : (y 1).val < 1 := (y 1).isLt
  have j1 : (j 1).val < 1 := (j 1).isLt
  unfold iblk
  rw [View.read_apply]
  show IntOp.cmpi .ne ((V m c main_call0_v0 : S4x1x2048x2048.Idx → BitVec 32) _) 0#32 = _
  rw [V_mask]
  show IntOp.cmpi .ne (((m ((c : Thread nD τ).loc main_arg3) : S4x1x2048x2048.Idx → BitVec 1) _).setWidth 32) 0#32 = _
  rw [maskBit]
  refine congrArg _ (funext fun a => Fin.ext ?_)
  match a with
  | ⟨0, _⟩ => show win0_3.index t (0 : Fin 4) * 1 + 1 * (y 0).val = (j 0).val; rw [show win0_3.index t (0 : Fin 4) = t.val / 64 from congrFun e3 0, h0]; omega
  | ⟨1, _⟩ => show win0_3.index t (1 : Fin 4) * 1 + 1 * (y 1).val = (j 1).val; rw [show win0_3.index t (1 : Fin 4) = 0 from congrFun e3 1]; omega
  | ⟨2, _⟩ => show win0_3.index t (2 : Fin 4) * 256 + 1 * (y 2).val = (j 2).val; rw [show win0_3.index t (2 : Fin 4) = t.val / 8 % 8 from congrFun e3 2, h2]; omega
  | ⟨3, _⟩ => show win0_3.index t (3 : Fin 4) * 2048 + 1 * (y 3).val = (j 3).val; rw [show win0_3.index t (3 : Fin 4) = 0 from congrFun e3 3, h3]; omega

/-- The arrays the kernel's result is a function of. -/
abbrev Qa (c : Dev nD) : Arr64 := m ((c : Thread nD τ).loc main_arg0)
abbrev Ka (c : Dev nD) : Arr64 := m ((c : Thread nD τ).loc main_arg1)
abbrev Va (c : Dev nD) : Arr64 := m ((c : Thread nD τ).loc main_arg2)
abbrev Ma (c : Dev nD) : MaskArr := m ((c : Thread nD τ).loc main_arg3)

/-- At point `t` the block's masked score for tile row `r` is the array's masked score (scale applied first) for batch
    `b`, head `h` and query row `256 * tile + r`. -/
theorem blockScore_eq (c : Dev nD) (t : Fin cfg0.N) (r : Fin 256) (b : Fin 4) (h : Fin 8) (q : Fin 2048)
    (hb : b.val = t.val / 64) (hh : h.val = t.val % 8) (hq : q.val = t.val / 8 % 8 * 256 + r.val) :
    blockScore (iblk m c 0 t) (headBlk (grid0.coords t) (iblk m c 1 t)) (iblk m c 3 t) r
      = scoreScaledFirst (Qa m c) (Ka m c) (Ma m c) b h q := by
  funext k
  unfold blockScore scoreScaledFirst
  refine congrArg₂ (fun (w : BitVec 1) (v : EReal) => Scalar.select w fillW v)
    (maskblk_apply m c t (ix4 (0 : Fin 1) (0 : Fin 1) r k) (ix4 b (0 : Fin 1) q k) hb hq rfl)
    (Finset.sum_congr rfl fun d _ => ?_)
  rw [qblk_apply m c t (ix4 (0 : Fin 1) (0 : Fin 1) r d) (ix4 b h q d) hb hh hq rfl,
    kslab_apply m c t (ix4 (0 : Fin 1) (0 : Fin 1) k d) (ix4 b h k d) hb hh rfl rfl]

/-! ## What each point writes back -/

/-- The probability block point `t` writes back is block `t` of the probability array of the arguments. -/
theorem flushed5_eq (c : Dev nD) (t : Fin cfg0.N) :
    (dats m 0 c).flushed 5 t
      = ((cfg0.win 5).blk t).view.read (Elt Ideal) (probArr (scoreScaledFirst (Qa m c) (Ka m c) (Ma m c))) := by
  rw [flushed5_A, out5_eq]
  obtain ⟨-, -, -, -, -, e5, -⟩ := idx_facts t
  funext y
  obtain ⟨u, v, r, k, rfl⟩ : ∃ (u v : Fin 1) (r : Fin 256) (k : Fin 2048), y = ix4 u v r k := ⟨y 0, y 1, y 2, y 3, eq_ix4 y⟩
  have hu : u.val < 1 := u.isLt
  have hv : v.val < 1 := v.isLt
  show k0_pay4 (F := Ideal) (iblk m c 0 t) (headBlk (grid0.coords t) (iblk m c 1 t)) (iblk m c 3 t) (ix4 u v r k)
    = probArr (scoreScaledFirst (Qa m c) (Ka m c) (Ma m c)) (((cfg0.win 5).blk t).view.emb (ix4 u v r k))
  refine (pay4_apply (iblk m c 0 t) (headBlk (grid0.coords t) (iblk m c 1 t)) (iblk m c 3 t) u v r k).trans ?_
  unfold probArr
  refine congrArg₂ (fun (s : Fin 2048 → EReal) (k' : Fin 2048) => softmax s k')
    (blockScore_eq m c t r _ _ _ ?_ ?_ ?_) (Fin.ext ?_)
  · show win0_5.index t (0 : Fin 4) * 1 + 1 * u.val = t.val / 64
    rw [show win0_5.index t (0 : Fin 4) = t.val / 64 from congrFun e5 0]; omega
  · show win0_5.index t (1 : Fin 4) * 1 + 1 * v.val = t.val % 8
    rw [show win0_5.index t (1 : Fin 4) = t.val % 8 from congrFun e5 1]; omega
  · show win0_5.index t (2 : Fin 4) * 256 + 1 * r.val = t.val / 8 % 8 * 256 + r.val
    rw [show win0_5.index t (2 : Fin 4) = t.val / 8 % 8 from congrFun e5 2]; omega
  · show k.val = win0_5.index t (3 : Fin 4) * 2048 + 1 * k.val
    rw [show win0_5.index t (3 : Fin 4) = 0 from congrFun e5 3]; omega

/-- The output block point `t` writes back is block `t` of the attention output of the arguments. -/
theorem flushed4_eq (c : Dev nD) (t : Fin cfg0.N) :
    (dats m 0 c).flushed 4 t
      = ((cfg0.win 4).blk t).view.read (Elt Ideal) (outArr (scoreScaledFirst (Qa m c) (Ka m c) (Ma m c)) (Va m c)) := by
  rw [flushed4_A, out4_eq]
  obtain ⟨-, -, -, -, e4, -, -⟩ := idx_facts t
  funext y
  obtain ⟨u, v, r, d, rfl⟩ : ∃ (u v : Fin 1) (r : Fin 256) (d : Fin 64), y = ix4 u v r d := ⟨y 0, y 1, y 2, y 3, eq_ix4 y⟩
  have hu : u.val < 1 := u.isLt
  have hv : v.val < 1 := v.isLt
  show k0_pay1 (F := Ideal) (k0_pay2 (F := Ideal) (headBlk (grid0.coords t) (iblk m c 2 t)))
      (k0_pay5 (F := Ideal) (iblk m c 0 t) (headBlk (grid0.coords t) (iblk m c 1 t)) (iblk m c 3 t)) (ix4 u v r d)
    = outArr (scoreScaledFirst (Qa m c) (Ka m c) (Ma m c)) (Va m c) (((cfg0.win 4).blk t).view.emb (ix4 u v r d))
  refine (out_apply (iblk m c 0 t) (headBlk (grid0.coords t) (iblk m c 1 t)) (headBlk (grid0.coords t) (iblk m c 2 t)) (iblk m c 3 t) u v r d).trans ?_
  unfold outArr
  have hb : (((cfg0.win 4).blk t).view.emb (ix4 u v r d) 0).val = t.val / 64 := by
    show win0_4.index t (0 : Fin 4) * 1 + 1 * u.val = t.val / 64
    rw [show win0_4.index t (0 : Fin 4) = t.val / 64 from congrFun e4 0]; omega
  have hh : (((cfg0.win 4).blk t).view.emb (ix4 u v r d) 1).val = t.val % 8 := by
    show win0_4.index t (1 : Fin 4) * 1 + 1 * v.val = t.val % 8
    rw [show win0_4.index t (1 : Fin 4) = t.val % 8 from congrFun e4 1]; omega
  have hq : (((cfg0.win 4).blk t).view.emb (ix4 u v r d) 2).val = t.val / 8 % 8 * 256 + r.val := by
    show win0_4.index t (2 : Fin 4) * 256 + 1 * r.val = t.val / 8 % 8 * 256 + r.val
    rw [show win0_4.index t (2 : Fin 4) = t.val / 8 % 8 from congrFun e4 2]; omega
  have hd : (((cfg0.win 4).blk t).view.emb (ix4 u v r d) 3).val = d.val := by
    show win0_4.index t (3 : Fin 4) * 64 + 1 * d.val = d.val
    rw [show win0_4.index t (3 : Fin 4) = 0 from congrFun e4 3]; omega
  refine Finset.sum_congr rfl fun k _ => ?_
  rw [blockScore_eq m c t r _ _ _ hb hh hq]
  refine congrArg (fun x : EReal => softmax _ k * x) ?_
  exact vslab_apply m c t (ix4 (0 : Fin 1) (0 : Fin 1) k d) _ hb hh rfl hd

/-! ## The blocks tile the arrays -/

theorem mem_blk5 (t : Fin cfg0.N) (i : S4x8x2048x2048.Idx) :
    i ∈ ((cfg0.win 5).blk t).view.set ↔ ∀ a : Fin 4, win0_5.index t a * S1x1x256x2048.size a ≤ (i a).val ∧ (i a).val < win0_5.index t a * S1x1x256x2048.size a + S1x1x256x2048.size a := by
  show i ∈ ((View.whole main_v0_1).slice (win0_5.rect t)).set ↔ _
  rw [View.set_slice_whole, Rect.mem_set_unit]
  exact Iff.rfl

theorem mem_blk4 (t : Fin cfg0.N) (i : S4x8x2048x64.Idx) :
    i ∈ ((cfg0.win 4).blk t).view.set ↔ ∀ a : Fin 4, win0_4.index t a * S1x1x256x64.size a ≤ (i a).val ∧ (i a).val < win0_4.index t a * S1x1x256x64.size a + S1x1x256x64.size a := by
  show i ∈ ((View.whole main_v0_0).slice (win0_4.rect t)).set ↔ _
  rw [View.set_slice_whole, Rect.mem_set_unit]
  exact Iff.rfl

/-- Entry (b, h, q, ·) of either output lies in the block of the point with batch b, query tile q / 256 and head h. -/
theorem point_of (b h q : ℕ) (hb : b < 4) (hh : h < 8) (hq : q < 2048) :
    ∃ t : Fin cfg0.N, t.val / 64 = b ∧ t.val % 8 = h ∧ t.val / 8 % 8 = q / 256 := by
  have hN : cfg0.N = 256 := N_0
  refine ⟨⟨b * 64 + q / 256 * 8 + h, by rw [hN]; omega⟩, ?_, ?_, ?_⟩
  · show (b * 64 + q / 256 * 8 + h) / 64 = b; omega
  · show (b * 64 + q / 256 * 8 + h) % 8 = h; omega
  · show (b * 64 + q / 256 * 8 + h) / 8 % 8 = q / 256; omega

theorem cover5 (i : S4x8x2048x2048.Idx) :
    ∃ t : Fin cfg0.N, (cfg0.win 5).flush t = true ∧ i ∈ ((cfg0.win 5).blk t).view.set := by
  have i0 : (i 0).val < 4 := (i 0).isLt
  have i1 : (i 1).val < 8 := (i 1).isLt
  have i2 : (i 2).val < 2048 := (i 2).isLt
  have i3 : (i 3).val < 2048 := (i 3).isLt
  obtain ⟨t, tb, th, tq⟩ := point_of (i 0).val (i 1).val (i 2).val i0 i1 i2
  obtain ⟨-, -, -, -, -, e5, -⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; rw [show win0_5.index t (0 : Fin 4) = t.val / 64 from congrFun e5 0]; omega
  | ⟨1, _⟩ => show win0_5.index t (1 : Fin 4) * 1 ≤ (i 1).val ∧ (i 1).val < win0_5.index t (1 : Fin 4) * 1 + 1; rw [show win0_5.index t (1 : Fin 4) = t.val % 8 from congrFun e5 1]; omega
  | ⟨2, _⟩ => show win0_5.index t (2 : Fin 4) * 256 ≤ (i 2).val ∧ (i 2).val < win0_5.index t (2 : Fin 4) * 256 + 256; rw [show win0_5.index t (2 : Fin 4) = t.val / 8 % 8 from congrFun e5 2]; omega
  | ⟨3, _⟩ => show win0_5.index t (3 : Fin 4) * 2048 ≤ (i 3).val ∧ (i 3).val < win0_5.index t (3 : Fin 4) * 2048 + 2048; rw [show win0_5.index t (3 : Fin 4) = 0 from congrFun e5 3]; omega

theorem cover4 (i : S4x8x2048x64.Idx) :
    ∃ t : Fin cfg0.N, (cfg0.win 4).flush t = true ∧ i ∈ ((cfg0.win 4).blk t).view.set := by
  have i0 : (i 0).val < 4 := (i 0).isLt
  have i1 : (i 1).val < 8 := (i 1).isLt
  have i2 : (i 2).val < 2048 := (i 2).isLt
  have i3 : (i 3).val < 64 := (i 3).isLt
  obtain ⟨t, tb, th, tq⟩ := point_of (i 0).val (i 1).val (i 2).val i0 i1 i2
  obtain ⟨-, -, -, -, e4, -, -⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; rw [show win0_4.index t (0 : Fin 4) = t.val / 64 from congrFun e4 0]; omega
  | ⟨1, _⟩ => show win0_4.index t (1 : Fin 4) * 1 ≤ (i 1).val ∧ (i 1).val < win0_4.index t (1 : Fin 4) * 1 + 1; rw [show win0_4.index t (1 : Fin 4) = t.val % 8 from congrFun e4 1]; omega
  | ⟨2, _⟩ => show win0_4.index t (2 : Fin 4) * 256 ≤ (i 2).val ∧ (i 2).val < win0_4.index t (2 : Fin 4) * 256 + 256; rw [show win0_4.index t (2 : Fin 4) = t.val / 8 % 8 from congrFun e4 2]; omega
  | ⟨3, _⟩ => show win0_4.index t (3 : Fin 4) * 64 ≤ (i 3).val ∧ (i 3).val < win0_4.index t (3 : Fin 4) * 64 + 64; rw [show win0_4.index t (3 : Fin 4) = 0 from congrFun e4 3]; omega

/-! ## The arrays after the run -/

theorem final5 (c : Dev nD) :
    (dats m 0 c).arrAt 5 cfg0.N = probArr (scoreScaledFirst (Qa m c) (Ka m c) (Ma m c)) :=
  (dats m 0 c).arrAt_eq_of_cover 5 (probArr (scoreScaledFirst (Qa m c) (Ka m c) (Ma m c))) (fun t _ => flushed5_eq m c t) cover5

theorem final4 (c : Dev nD) :
    (dats m 0 c).arrAt 4 cfg0.N = outArr (scoreScaledFirst (Qa m c) (Ka m c) (Ma m c)) (Va m c) :=
  (dats m 0 c).arrAt_eq_of_cover 4 (outArr (scoreScaledFirst (Qa m c) (Ka m c) (Ma m c)) (Va m c)) (fun t _ => flushed4_eq m c t) cover4

/-- The kernel's run: every weakly fair execution ends with the output array at the attention output and the
    probability array at the softmax probabilities of the launch contents, the arguments unchanged. -/
theorem run : θ_run defs (onTc (τ := τ) (main (F := Ideal))) ⟨m, fun _ => 0, ρ⟩ fun r => ∀ c : Dev nD,
      r.2.mem ((c : Thread nD τ).loc main_v0_0) = outArr (scoreScaledFirst (Qa m c) (Ka m c) (Ma m c)) (Va m c)
      ∧ r.2.mem ((c : Thread nD τ).loc main_v0_1) = probArr (scoreScaledFirst (Qa m c) (Ka m c) (Ma m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelIdeal.Hand
end
-- ==== Proof.RefIs.lean ====
/-
  The reference's two results, read over the extended reals, are the probability array and the attention output of the
  masked score whose scale is applied to the SUM of products.

  Read operation by operation: the contraction of queries with keys over the last axis gives, at (b, h, q, k), the sum
  over d of Q(b,h,q,d) * K(b,h,k,d); the product with the broadcast scale multiplies that sum by 1/8; the select
  replaces it by the fill value where the mask bit at (b, 0, q, k) is set. The maximum over the last axis is the fold of
  max from minus infinity over k, and taking the maximum with minus infinity once more changes nothing. Subtracting it,
  exponentiating, summing over k from zero, and dividing give the softmax of the row; contracting the probabilities
  with the values over k gives the output.
-/
import proofs.«128989_j49065706389912_2_alg».proof.Proof.Gen.ReferenceIdeal.Read
import proofs.«128989_j49065706389912_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.Attn
open Idealize.ShloMosaic Idealize.ShloMosaic.ValueIdx
open scoped BigOperators

variable (Q K V : (⟨S4x8x2048x64, .f32⟩ : BufTy).Contents (Elt Ideal)) (M : (⟨S4x1x2048x2048, .i1⟩ : BufTy).Contents (Elt Ideal))

/-- The masked, scaled score at (b, h, q, k). -/
theorem v3_apply (b : Fin 4) (h : Fin 8) (q k : Fin 2048) :
    val_main_v3 (F := Ideal) Q K M (ix4 b h q k) = scoreScaledLast Q K M b h q k := by
  have e0 : idx_main_call0_v0 (ix4 b h q k) = ix4 b (0 : Fin 1) q k :=
    funext fun a => Fin.ext (by match a with | ⟨0, _⟩ => rfl | ⟨1, _⟩ => rfl | ⟨2, _⟩ => rfl | ⟨3, _⟩ => rfl)
  have el : ∀ d : Fin 64, lidx_main_v0 (ix4 b h q k) d = ix4 b h q d := fun d =>
    funext fun a => Fin.ext (by match a with | ⟨0, _⟩ => rfl | ⟨1, _⟩ => rfl | ⟨2, _⟩ => rfl | ⟨3, _⟩ => rfl)
  have er : ∀ d : Fin 64, ridx_main_v0 (ix4 b h q k) d = ix4 b h k d := fun d =>
    funext fun a => Fin.ext (by match a with | ⟨0, _⟩ => rfl | ⟨1, _⟩ => rfl | ⟨2, _⟩ => rfl | ⟨3, _⟩ => rfl)
  rw [val_main_v3_apply, val_main_call0_v0_apply, val_main_call0_v1_apply, val_main_cst_0_apply, val_main_v2_apply,
    val_main_v0_apply, val_main_v1_apply, val_main_cst_apply, e0]
  simp only [el, er]
  rfl

set_option backward.isDefEq.respectTransparency.types false in
/-- Over (b, h, q), inserting coordinate `k` on the reduced last axis gives (b, h, q, k). -/
theorem lift_last (hr : S4x8x2048x2048.Reduces [3] S4x8x2048) (b : Fin 4) (h : Fin 8) (q k : Fin 2048) :
    hr.lift (ix3 b h q) k = ix4 b h q k := by
  funext c
  apply Fin.ext
  rw [hr.lift_val]
  match c with
  | ⟨0, _⟩ => rfl
  | ⟨1, _⟩ => rfl
  | ⟨2, _⟩ => rfl
  | ⟨3, _⟩ => rfl

theorem reduces_last : S4x8x2048x2048.Reduces [3] S4x8x2048 := by decide

/-- The row maximum at (b, h, q). -/
theorem v6_apply (b : Fin 4) (h : Fin 8) (q : Fin 2048) :
    val_main_v6 (F := Ideal) Q K M (ix3 b h q) = rowMax (scoreScaledLast Q K M b h q) := by
  rw [val_main_v6_apply, val_main_v5_apply, val_main_cst_2_apply]
  have e4 : val_main_v4 (F := Ideal) Q K M (ix3 b h q) = rowMax (scoreScaledLast Q K M b h q) := by
    unfold val_main_v4
    refine (Host.reduce_eq_fold_single (FloatOps.maximumf (F := Ideal) (φ := .f32)) (val_main_v3 (F := Ideal) Q K M) (val_main_cst_1 (F := Ideal))
      reducesTo_S4x8x2048x2048_S4x8x2048_d3 reduces_last h_S_ (ix3 b h q)).trans ?_
    unfold rowMax
    have ef : (val_main_v3 (F := Ideal) Q K M ∘ reduces_last.lift (ix3 b h q)) = scoreScaledLast Q K M b h q :=
      funext fun (k : Fin 2048) =>
        (congrArg (val_main_v3 (F := Ideal) Q K M) (lift_last reduces_last b h q k)).trans (v3_apply Q K M b h q k)
    rw [ef]
    rfl
  rw [e4]
  exact max_negInf_rowMax _

/-- The exponential at (b, h, q, k). -/
theorem v10_apply (b : Fin 4) (h : Fin 8) (q k : Fin 2048) :
    val_main_v10 (F := Ideal) Q K M (ix4 b h q k) = rowExp (scoreScaledLast Q K M b h q) k := by
  have e8 : idx_main_v7 (idx_main_v8 (ix4 b h q k)) = ix3 b h q :=
    funext fun a => Fin.ext (by match a with | ⟨0, _⟩ => rfl | ⟨1, _⟩ => rfl | ⟨2, _⟩ => rfl)
  rw [val_main_v10_apply, val_main_v9_apply, val_main_v8_apply, val_main_v7_apply, e8, v6_apply, v3_apply]
  rfl

/-- The probability result is the probability array of the score scaled last. -/
theorem v14_eq : val_main_v14 (F := Ideal) Q K M = probArr (scoreScaledLast Q K M) := by
  funext i
  obtain ⟨b, h, q, k, rfl⟩ : ∃ (b : Fin 4) (h : Fin 8) (q k : Fin 2048), i = ix4 b h q k := ⟨i 0, i 1, i 2, i 3, eq_ix4 i⟩
  have e13 : idx_main_v12 (idx_main_v13 (ix4 b h q k)) = ix3 b h q :=
    funext fun a => Fin.ext (by match a with | ⟨0, _⟩ => rfl | ⟨1, _⟩ => rfl | ⟨2, _⟩ => rfl)
  have e11 : ∀ k' : Fin 2048, idx_main_v11 (ix3 b h q) k' = ix4 b h q k' := fun k' =>
    funext fun a => Fin.ext (by match a with | ⟨0, _⟩ => rfl | ⟨1, _⟩ => rfl | ⟨2, _⟩ => rfl | ⟨3, _⟩ => rfl)
  rw [val_main_v14_apply, val_main_v13_apply, val_main_v12_apply, e13, val_main_v11_apply, val_main_cst_3_apply, v10_apply]
  simp only [e11, v10_apply]
  show Ideal.div _ (Ideal.ofBits .f32 0x00000000#32 + _) = _
  rw [Ideal.ofBits_zero_f32, zero_add]
  rfl

/-- The output result is the attention output of the score scaled last and the values. -/
theorem v15_eq : val_main_v15 (F := Ideal) Q K V M = outArr (scoreScaledLast Q K M) V := by
  funext i
  obtain ⟨b, h, q, d, rfl⟩ : ∃ (b : Fin 4) (h : Fin 8) (q : Fin 2048) (d : Fin 64), i = ix4 b h q d := ⟨i 0, i 1, i 2, i 3, eq_ix4 i⟩
  have el : ∀ k : Fin 2048, lidx_main_v15 (ix4 b h q d) k = ix4 b h q k := fun k =>
    funext fun a => Fin.ext (by match a with | ⟨0, _⟩ => rfl | ⟨1, _⟩ => rfl | ⟨2, _⟩ => rfl | ⟨3, _⟩ => rfl)
  have er : ∀ k : Fin 2048, ridx_main_v15 (ix4 b h q d) k = ix4 b h k d := fun k =>
    funext fun a => Fin.ext (by match a with | ⟨0, _⟩ => rfl | ⟨1, _⟩ => rfl | ⟨2, _⟩ => rfl | ⟨3, _⟩ => rfl)
  rw [val_main_v15_apply, v14_eq]
  simp only [el, er]
  rfl

end Cert.ReferenceIdeal.RefValue

end
-- ==== Proof.LibRangeOfReduce.lean ====
/-
  Bounds read back from an `and`-reduction over every entry of an array.

  A predicate that ends in "all entries satisfy …" is an `and`-reduction, from one, of the array of the entries' one-bit
  tests, and the claim is that its result is one. Then every entry passed its test. Two tests are read back here:
  a signed integer entry between two bounds (`lo ≤ x` and `x ≤ hi`, each a signed comparison), and an extended-real
  entry of finite size (`|x| < +∞`, where `|x|` is `max x (-x)`): such an entry is a real number.
-/
import Idealize.ShloMosaic.Lib.ReduceAll
import Idealize.ShloMosaic.PureOps.Ideal
import Idealize.ShloMosaic.PureOps.Ideal.Laws

namespace Cert.Lib.RangeOfReduce

open Idealize.ShloMosaic

variable {s t u : Shape} {axes : List (Fin s.rank)}

/-- If the `and` over ALL entries of "`lo ≤ x` and `x ≤ hi`" (signed comparisons, entry by entry against the arrays
    `lo` and `hi` — splat constants in the usual case) is one, every entry of `x` lies between its bounds. -/
theorem sbounds_of_reduce_all [Subsingleton t.Idx] {w : Nat} (x lo hi : IVec s w) (init : u.Idx → BitVec 1)
    (h : s.ReducesTo axes t) (hu : 0 < u.numel) (j : t.Idx)
    (e : Host.reduce IntOp.andi (andi (cmpi .sge x lo) (cmpi .sle x hi)) init h hu j = 1#1) (i : s.Idx) :
    (lo i).toInt ≤ (x i).toInt ∧ (x i).toInt ≤ (hi i).toInt := by
  obtain ⟨hge, hle⟩ := IntOp.andi_eq_one.1 (Host.reduce_andi_all _ init h hu j e i)
  exact ⟨IntOp.cmpi_sge.1 hge, IntOp.cmpi_sle.1 hle⟩

/-- A one-bit word made from a truth value is one exactly when the value is true. -/
theorem ofBool_eq_one {b : Bool} : BitVec.ofBool b = 1#1 ↔ b = true := by cases b <;> decide

/-- An extended real whose absolute value `max x (-x)` is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If the `and` over ALL entries of "`|x| < bound`" is one and the bound array is `+∞` everywhere, every entry of
    `x` is a real number. -/
theorem real_of_reduce_all [Subsingleton t.Idx] {φ : FTy} (x bound : FVec Ideal s φ) (hb : ∀ i, bound i = (⊤ : EReal))
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, x i = (r : EReal) := by
  have hi : Ideal.cmp .olt (max (x i) (-(x i))) (bound i) = 1#1 := Host.reduce_andi_all _ init h hu j e i
  rw [hb i] at hi
  refine real_of_abs_lt_top (x i) ?_
  have hd : decide (max (x i) (-(x i)) < (⊤ : EReal)) = true := ofBool_eq_one.1 hi
  exact of_decide_eq_true hd

end Cert.Lib.RangeOfReduce
-- ==== Proof.Finite.lean ====
/-
  Under the precondition every query, key and value entry is a real number.

  The precondition is the conjunction of three tests, one per float argument, each the `and` over all entries of
  "|x| < +inf". An extended real whose absolute value is below +inf is neither infinity, so it is real.
-/
import proofs.«128989_j49065706389912_2_alg».proof.Pre_finite_inputs
import proofs.«128989_j49065706389912_2_alg».proof.Proof.Gen.Pre_finite_inputs
import proofs.«128989_j49065706389912_2_alg».proof.Proof.LibRangeOfReduce
import Idealize.ShloMosaic.Lib.ValueIdx
import Idealize.ShloMosaic.Lib.ReduceAll

noncomputable section

namespace Cert.Pre_finite_inputs.Hand

open Idealize.ShloMosaic Cert.Pre_finite_inputs Cert.Pre_finite_inputs.Facts

instance : Subsingleton S_.Idx := ⟨fun a b => funext fun d => d.elim0⟩

/-- The f32 word 0x7F800000 denotes +inf. -/
theorem ofBits_posInf : Ideal.ofBits .f32 0x7F800000#32 = (⊤ : EReal) := by
  simp [Ideal.ofBits, Ideal.ieee]

/-- If the precondition's value is one, all entries of the three float arguments are real. -/
theorem real_of_pre (q k v : FVec Ideal S4x8x2048x64 .f32) (mk : IVec S4x1x2048x2048 1)
    (h : Cert.Pre_finite_inputs.fn (F := Ideal) q k v mk = fun _ => 1#1) :
    (∀ i, ∃ r : ℝ, q i = (r : EReal)) ∧ (∀ i, ∃ r : ℝ, k i = (r : EReal)) ∧ (∀ i, ∃ r : ℝ, v i = (r : EReal)) := by
  have h1 := congrFun h ValueIdx.ix0
  dsimp only [Cert.Pre_finite_inputs.fn] at h1
  obtain ⟨h12, hv⟩ := IntOp.andi_eq_one.1 h1
  obtain ⟨hq, hk⟩ := IntOp.andi_eq_one.1 h12
  refine ⟨fun i => ?_, fun i => ?_, fun i => ?_⟩
  · exact Cert.Lib.RangeOfReduce.real_of_reduce_all q _ (fun _ => ofBits_posInf) _ _ _ _ hq i
  · exact Cert.Lib.RangeOfReduce.real_of_reduce_all k _ (fun _ => ofBits_posInf) _ _ _ _ hk i
  · exact Cert.Lib.RangeOfReduce.real_of_reduce_all v _ (fun _ => ofBits_posInf) _ _ _ _ hv i

end Cert.Pre_finite_inputs.Hand

end
-- ==== Proof.lean ====
/-
  Attention with a fill mask: the kernel against its reference, over the extended reals.

  Both programs take queries Q, keys K, values V of shape [4, 8, 2048, 64] and a mask of shape [4, 1, 2048, 2048] and
  return the attention output [4, 8, 2048, 64] and the probabilities [4, 8, 2048, 2048]. For batch b, head h and query row
  q the masked score against key row k is the fill value where the mask bit (b, 0, q, k) is set and otherwise the dot
  product of Q(b,h,q,·) and K(b,h,k,·) scaled by 1/8; the probabilities are the softmax of the row of scores (maximum
  subtracted first), and the output is the probability row times the value matrix of (b, h).

  The kernel works tile by tile: 256 grid points over (batch, tile of 256 query rows, head), each forming the scores of
  its 256 rows against all 2048 key rows, their softmax, and the product with the values; its blocks tile both results,
  so after the run each result array is the formula above at every entry. It scales each QUERY entry by 1/8 before
  the products are summed, where the reference scales the SUM; the two agree because the precondition makes every query
  and key entry a real number, and multiplication by the real 1/8 distributes over a finite sum of reals. Everything
  after the score — fill, maximum, exponential, sum, quotient, second product — is the same function on both sides.
  The reference takes the maximum with minus infinity once more after its reduction from minus infinity, which changes
  nothing, and reads the mask bit directly where the kernel tests its widened copy against zero.

  The three frames are the generated frame of each kernel program and the reference's generated run with its results
  dropped; the kernel's idealization rewrote nothing, so that conjunct is trivial.
-/
import proofs.«128989_j49065706389912_2_alg».proof.Defs
import proofs.«128989_j49065706389912_2_alg».proof.Proof.Gen.Kernel
import proofs.«128989_j49065706389912_2_alg».proof.Proof.Gen.Kernel.Skeleton
import proofs.«128989_j49065706389912_2_alg».proof.Proof.Gen.Kernel.Launch
import proofs.«128989_j49065706389912_2_alg».proof.Proof.Gen.Kernel.Points
import proofs.«128989_j49065706389912_2_alg».proof.Proof.Gen.Kernel.Frame
import proofs.«128989_j49065706389912_2_alg».proof.Proof.Gen.KernelIdeal
import proofs.«128989_j49065706389912_2_alg».proof.Proof.Gen.KernelIdeal.Skeleton
import proofs.«128989_j49065706389912_2_alg».proof.Proof.Gen.KernelIdeal.Launch
import proofs.«128989_j49065706389912_2_alg».proof.Proof.Gen.KernelIdeal.Points
import proofs.«128989_j49065706389912_2_alg».proof.Proof.Gen.KernelIdeal.Frame
import proofs.«128989_j49065706389912_2_alg».proof.Proof.Gen.ReferenceIdeal
import proofs.«128989_j49065706389912_2_alg».proof.Proof.Gen.Pre_finite_inputs
import proofs.«128989_j49065706389912_2_alg».proof.Proof.Gen.KernelIdeal.Value
import proofs.«128989_j49065706389912_2_alg».proof.Proof.Gen.ReferenceIdeal.Run
import proofs.«128989_j49065706389912_2_alg».proof.Proof.Gen.ReferenceIdeal.Read
import proofs.«128989_j49065706389912_2_alg».proof.Proof.Spec
import proofs.«128989_j49065706389912_2_alg».proof.Proof.Blocks
import proofs.«128989_j49065706389912_2_alg».proof.Proof.RefIs
import proofs.«128989_j49065706389912_2_alg».proof.Proof.Finite
import Idealize.ShloMosaic.Adequacy
import Idealize.ShloMosaic.Init

noncomputable section

namespace Cert.Proof

open Idealize.ShloMosaic Idealize.SL.Sem Cert.Attn

/-- The reference's frame: its run, with the two results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the attention output and the probabilities of
    the score scaled first; the reference's, computed with the score scaled last, are the same arrays because the
    precondition makes the query and key entries real. -/
theorem algebraic : Cert.algebraic_KernelIdeal_ReferenceIdeal := by
  intro m ρ m' ρ' hpre hagree
  refine ⟨fun c => outArr (scoreScaledFirst (Cert.KernelIdeal.Hand.Qa m c) (Cert.KernelIdeal.Hand.Ka m c) (Cert.KernelIdeal.Hand.Ma m c)) (Cert.KernelIdeal.Hand.Va m c),
    fun c => probArr (scoreScaledFirst (Cert.KernelIdeal.Hand.Qa m c) (Cert.KernelIdeal.Hand.Ka m c) (Cert.KernelIdeal.Hand.Ma m c)),
    Cert.KernelIdeal.Hand.run m ρ, ?_⟩
  refine (θ_run Cert.ReferenceIdeal.defs _ _).mono (fun _ h c => ?_) (Cert.ReferenceIdeal.Value.run (F := Ideal) m' ρ')
  obtain ⟨a0, a1, a2, a3⟩ := hagree c
  obtain ⟨hQ, hK, -⟩ := Cert.Pre_finite_inputs.Hand.real_of_pre _ _ _ _ (hpre c)
  refine ⟨(h c).1.trans ?_, (h c).2.1.trans ?_, (h c).2.2⟩
  · rw [a0, a1, a2, a3, Cert.ReferenceIdeal.Read.val_main_v15_eq, Cert.ReferenceIdeal.RefValue.v15_eq]
    exact (congrArg (fun sc => outArr sc (Cert.KernelIdeal.Hand.Va m c))
      (scoreScaledFirst_eq (Cert.KernelIdeal.Hand.Qa m c) (Cert.KernelIdeal.Hand.Ka m c) (Cert.KernelIdeal.Hand.Ma m c) hQ hK)).symm
  · rw [a0, a1, a3, Cert.ReferenceIdeal.Read.val_main_v14_eq, Cert.ReferenceIdeal.RefValue.v14_eq]
    exact (congrArg probArr
      (scoreScaledFirst_eq (Cert.KernelIdeal.Hand.Qa m c) (Cert.KernelIdeal.Hand.Ka m c) (Cert.KernelIdeal.Hand.Ma m c) hQ hK)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
